-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x32 .f32) (main_arg4 : FVec F S32 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
/-
  THE KERNEL PROGRAM'S RUN WITH ITS RESULT NAMED.

  The program is two grids of a row-block matrix product among three stretches of host operations. Every weakly fair
  execution of it terminates, nothing faulting, with every buffer of the TensorCore that outlives a region at the contents
  the LAST boundary of the fold through @main gives it: the launch memory, through the host operations before the first
  product, the first product's arrays as its write-backs leave them, the host operations between, the second product's
  arrays, the host operations after. Read at the result buffer that is the program's result as a value of the launch
  memory (`run_result`), and read at the six argument buffers it is the launch memory itself, since no operation and no
  region writes an argument. What the boundary's contents ARE at the result buffer is the subject of the other modules.
-/
import proofs.«153812_j33191507264214_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-region launch theorem is applied with its implicit arguments left to unification against this statement
set_option backward.isDefEq.respectTransparency.types false in
/-- Every weakly fair execution of @main terminates with the result buffer at the last boundary's contents and the
    arguments as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ValueRun

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«153812_j33191507264214_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«153812_j33191507264214_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.Region0.lean ====
/-
  THE FIRST PRODUCT: the array the first grid leaves is the product of the two arrays it finds.

  The grid has ten points. Point `t` is handed rows `10000·t … 10000·t + 9999` of the `[100000, 128]` left array and the
  whole `[128, 64]` right array, multiplies them on the vector unit into a zero accumulator (the conversions of the two
  operands to a narrower float format are the identity at the ideal values), and writes the `[10000, 64]` result back as
  rows `10000·t … 10000·t + 9999` of the `[100000, 64]` result array. Entry `(r, c)` of a block's product is
  `∑ k, left (10000·t + r, k) · right (k, c)`, which is entry `(10000·t + r, c)` of the product of the whole arrays, and row
  `i` of the result array lies in the block of point `i / 10000`: the ten blocks tile the array, so the array ends holding
  the whole product, for whatever contents the region finds (`V`). No sum is regrouped and nothing needs to be finite.
-/
import proofs.«153812_j33191507264214_2_alg».proof.Proof.Gen.KernelIdeal.Frame
import proofs.«153812_j33191507264214_2_alg».proof.Proof.LibBlockDot
import Idealize.ShloMosaic.Lib.Pipeline.Value

set_option maxRecDepth 16384

noncomputable section

namespace Cert.KernelIdeal.Product0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a whole `[100000, 128]` array and a `[128, 64]` array, as the host computes it. -/
abbrev whole (X : S100000x128.Idx → EReal) (W : S128x64.Idx → EReal) : S100000x64.Idx → EReal :=
  Host.dotGeneral (F := Ideal) (φ₁ := .f32) (φ₂ := .f32) (DotDims.plain 100000 128 64) none X W

/-- One point's stored value at an index `j` of its block is the whole product at the index `i` that names the same
    column, `off` rows further down, when the loaded left block is the left array read `off` rows down and the loaded
    right block is the right array. -/
theorem pay_block (x0 : Vec Ideal S10000x128 .f32) (x1 : Vec Ideal S128x64 .f32)
    (X : S100000x128.Idx → EReal) (W : S128x64.Idx → EReal) (off : ℕ)
    (j : S10000x64.Idx) (i : S100000x64.Idx) (hi0 : (i 0).val = off + (j 0).val) (hi1 : (i 1).val = (j 1).val)
    (hx : ∀ (y : S10000x128.Idx) (z : S100000x128.Idx), (z 0).val = off + (y 0).val → (z 1).val = (y 1).val → (x0 y : EReal) = X z)
    (hw : ∀ y : S128x64.Idx, (x1 y : EReal) = W y) :
    (k0_pay1 x0 x1 j : EReal) = whole X W i := by
  show matmul (F := Ideal) (DotDims.plain 10000 128 64) none x0 x1 (constant (F := Ideal) ⟨2, ![10000, 64]⟩ .f32 0x00000000#32) j = _
  exact Cert.BlockDot.kdot_block none none x0 X x1 W off j i hi0 hi1 hx hw

/-- The printed index maps, decided over the grid: the left and the result blocks move with the point along the rows,
    the right block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed (c : Dev nD) (t : Fin cfg0.N) :
    (dat0 V c).flushed 2 t
      = ((cfg0.win 2).blk t).view.read (Elt Ideal) (whole (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  show (k0_pay1 (iblk0 V c 0 t) (iblk0 V c 1 t) j : EReal)
    = whole (V c main_arg0) (V c main_arg1) (((cfg0.win 2).blk t).view.emb j)
  refine pay_block (iblk0 V c 0 t) (iblk0 V c 1 t) (V c main_arg0) (V c main_arg1) (t.val * 10000) j
    (((cfg0.win 2).blk t).view.emb j) ?_ ?_ ?_ ?_
  · show win0_2.index t (0 : Fin 2) * 10000 + 1 * (j 0).val = t.val * 10000 + (j 0).val
    omega
  · show win0_2.index t (1 : Fin 2) * 64 + 1 * (j 1).val = (j 1).val
    omega
  · intro y z h0 h1
    unfold iblk0
    rw [View.read_apply]
    show V c main_arg0 (((cfg0.win 0).blk t).view.emb y) = V c main_arg0 z
    congr 1
    funext a
    apply Fin.ext
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · intro y
    unfold iblk0
    rw [View.read_apply]
    show V c main_arg1 (((cfg0.win 1).blk t).view.emb y) = V c main_arg1 y
    congr 1
    funext a
    apply Fin.ext
    match a with
    | ⟨0, _⟩ => show win0_1.index t (0 : Fin 2) * 128 + 1 * (y 0).val = (y 0).val; omega
    | ⟨1, _⟩ => show win0_1.index t (1 : Fin 2) * 64 + 1 * (y 1).val = (y 1).val; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- The result array after the grid: the whole product of the two arrays the region finds. Row `i` is in the block of
    point `i / 10000`. -/
theorem array (c : Dev nD) : (dat0 V c).arrAt 2 cfg0.N = whole (V c main_arg0) (V c main_arg1) :=
  (dat0 V c).arrAt_eq_of_cover 2 (whole (V c main_arg0) (V c main_arg1)) (fun t _ => flushed V c t) fun i => by
    have hi0 : (i 0).val < 100000 := (i 0).isLt
    have hi1 : (i 1).val < 64 := (i 1).isLt
    have hN : cfg0.N = 10 := N_0
    have ht : (i 0).val / 10000 < cfg0.N := by rw [hN]; omega
    obtain ⟨e0, e1, e2, e3, e4, e5⟩ := idx_facts ⟨(i 0).val / 10000, ht⟩
    refine ⟨⟨(i 0).val / 10000, ht⟩, flush0_2 _, ?_⟩
    rw [mem_blk]
    intro a
    match a with
    | ⟨0, _⟩ =>
      show win0_2.index ⟨(i 0).val / 10000, ht⟩ (0 : Fin 2) * 10000 ≤ (i 0).val
        ∧ (i 0).val < win0_2.index ⟨(i 0).val / 10000, ht⟩ (0 : Fin 2) * 10000 + 10000
      rw [e4]
      show (i 0).val / 10000 * 10000 ≤ (i 0).val ∧ (i 0).val < (i 0).val / 10000 * 10000 + 10000
      omega
    | ⟨1, _⟩ =>
      show win0_2.index ⟨(i 0).val / 10000, ht⟩ (1 : Fin 2) * 64 ≤ (i 1).val
        ∧ (i 1).val < win0_2.index ⟨(i 0).val / 10000, ht⟩ (1 : Fin 2) * 64 + 64
      rw [e5]
      omega

end Cert.KernelIdeal.Product0

end
-- ==== Proof.Region1.lean ====
/-
  THE SECOND PRODUCT: the array the second grid leaves is the product of the two arrays it finds.

  The grid has ten points. Point `t` is handed rows `10000·t … 10000·t + 9999` of the `[100000, 64]` left array and the
  whole `[64, 32]` right array, multiplies them on the vector unit into a zero accumulator (the conversions of the two
  operands to a narrower float format are the identity at the ideal values, and so is the cast of the left block to its own
  shape), and writes the `[10000, 32]` result back as
  rows `10000·t … 10000·t + 9999` of the `[100000, 32]` result array. Entry `(r, c)` of a block's product is
  `∑ k, left (10000·t + r, k) · right (k, c)`, which is entry `(10000·t + r, c)` of the product of the whole arrays, and row
  `i` of the result array lies in the block of point `i / 10000`: the ten blocks tile the array, so the array ends holding
  the whole product, for whatever contents the region finds (`V`). No sum is regrouped and nothing needs to be finite.
-/
import proofs.«153812_j33191507264214_2_alg».proof.Proof.Gen.KernelIdeal.Frame
import proofs.«153812_j33191507264214_2_alg».proof.Proof.LibBlockDot
import Idealize.ShloMosaic.Lib.Pipeline.Value

set_option maxRecDepth 16384

noncomputable section

namespace Cert.KernelIdeal.Product1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a whole `[100000, 64]` array and a `[64, 32]` array, as the host computes it. -/
abbrev whole (X : S100000x64.Idx → EReal) (W : S64x32.Idx → EReal) : S100000x32.Idx → EReal :=
  Host.dotGeneral (F := Ideal) (φ₁ := .f32) (φ₂ := .f32) (DotDims.plain 100000 64 32) none X W

/-- One point's stored value at an index `j` of its block is the whole product at the index `i` that names the same
    column, `off` rows further down, when the loaded left block is the left array read `off` rows down and the loaded
    right block is the right array. -/
theorem pay_block (x0 : Vec Ideal S10000x64 .f32) (x1 : Vec Ideal S64x32 .f32)
    (X : S100000x64.Idx → EReal) (W : S64x32.Idx → EReal) (off : ℕ)
    (j : S10000x32.Idx) (i : S100000x32.Idx) (hi0 : (i 0).val = off + (j 0).val) (hi1 : (i 1).val = (j 1).val)
    (hx : ∀ (y : S10000x64.Idx) (z : S100000x64.Idx), (z 0).val = off + (y 0).val → (z 1).val = (y 1).val → (x0 y : EReal) = X z)
    (hw : ∀ y : S64x32.Idx, (x1 y : EReal) = W y) :
    (k1_pay1 x0 x1 j : EReal) = whole X W i := by
  show matmul (F := Ideal) (DotDims.plain 10000 64 32) none (shapeCast S10000x64 x0 shapeCasts_S10000x64_S10000x64) x1
      (constant (F := Ideal) ⟨2, ![10000, 32]⟩ .f32 0x00000000#32) j = _
  rw [shapeCast_self]
  exact Cert.BlockDot.kdot_block none none x0 X x1 W off j i hi0 hi1 hx hw

/-- The printed index maps, decided over the grid: the left and the result blocks move with the point along the rows,
    the right block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays the region finds. -/
theorem flushed (c : Dev nD) (t : Fin cfg1.N) :
    (dat1 V c).flushed 2 t
      = ((cfg1.win 2).blk t).view.read (Elt Ideal) (whole (V c main_v47) (V c main_arg3)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  obtain ⟨e0, e1, e2, e3, e4, e5⟩ := idx_facts t
  funext j
  show (k1_pay1 (iblk1 V c 0 t) (iblk1 V c 1 t) j : EReal)
    = whole (V c main_v47) (V c main_arg3) (((cfg1.win 2).blk t).view.emb j)
  refine pay_block (iblk1 V c 0 t) (iblk1 V c 1 t) (V c main_v47) (V c main_arg3) (t.val * 10000) j
    (((cfg1.win 2).blk t).view.emb j) ?_ ?_ ?_ ?_
  · show win1_2.index t (0 : Fin 2) * 10000 + 1 * (j 0).val = t.val * 10000 + (j 0).val
    omega
  · show win1_2.index t (1 : Fin 2) * 32 + 1 * (j 1).val = (j 1).val
    omega
  · intro y z h0 h1
    unfold iblk1
    rw [View.read_apply]
    show V c main_v47 (((cfg1.win 0).blk t).view.emb y) = V c main_v47 z
    congr 1
    funext a
    apply Fin.ext
    match a with
    | ⟨0, _⟩ => show win1_0.index t (0 : Fin 2) * 10000 + 1 * (y 0).val = (z 0).val; omega
    | ⟨1, _⟩ => show win1_0.index t (1 : Fin 2) * 64 + 1 * (y 1).val = (z 1).val; omega
  · intro y
    unfold iblk1
    rw [View.read_apply]
    show V c main_arg3 (((cfg1.win 1).blk t).view.emb y) = V c main_arg3 y
    congr 1
    funext a
    apply Fin.ext
    match a with
    | ⟨0, _⟩ => show win1_1.index t (0 : Fin 2) * 64 + 1 * (y 0).val = (y 0).val; omega
    | ⟨1, _⟩ => show win1_1.index t (1 : Fin 2) * 32 + 1 * (y 1).val = (y 1).val; omega

/-- An index of the result array is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val
      ∧ (i a).val < win1_2.index t a * S10000x32.size a + S10000x32.size a := by
  show i ∈ ((View.whole main_v48).slice (win1_2.rect t)).set ↔ _
  rw [View.set_slice_whole, Rect.mem_set_unit]
  exact Iff.rfl

/-- The result array after the grid: the whole product of the two arrays the region finds. Row `i` is in the block of
    point `i / 10000`. -/
theorem array (c : Dev nD) : (dat1 V c).arrAt 2 cfg1.N = whole (V c main_v47) (V c main_arg3) :=
  (dat1 V c).arrAt_eq_of_cover 2 (whole (V c main_v47) (V c main_arg3)) (fun t _ => flushed V c t) fun i => by
    have hi0 : (i 0).val < 100000 := (i 0).isLt
    have hi1 : (i 1).val < 32 := (i 1).isLt
    have hN : cfg1.N = 10 := N_1
    have ht : (i 0).val / 10000 < cfg1.N := by rw [hN]; omega
    obtain ⟨e0, e1, e2, e3, e4, e5⟩ := idx_facts ⟨(i 0).val / 10000, ht⟩
    refine ⟨⟨(i 0).val / 10000, ht⟩, flush1_2 _, ?_⟩
    rw [mem_blk]
    intro a
    match a with
    | ⟨0, _⟩ =>
      show win1_2.index ⟨(i 0).val / 10000, ht⟩ (0 : Fin 2) * 10000 ≤ (i 0).val
        ∧ (i 0).val < win1_2.index ⟨(i 0).val / 10000, ht⟩ (0 : Fin 2) * 10000 + 10000
      rw [e4]
      show (i 0).val / 10000 * 10000 ≤ (i 0).val ∧ (i 0).val < (i 0).val / 10000 * 10000 + 10000
      omega
    | ⟨1, _⟩ =>
      show win1_2.index ⟨(i 0).val / 10000, ht⟩ (1 : Fin 2) * 32 ≤ (i 1).val
        ∧ (i 1).val < win1_2.index ⟨(i 0).val / 10000, ht⟩ (1 : Fin 2) * 32 + 32
      rw [e5]
      omega

end Cert.KernelIdeal.Product1

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.HostPre.lean ====
/-
  THE HOST OPERATIONS BEFORE THE FIRST PRODUCT, read at the buffers the rest of the program uses.

  From the edge list `e` (two rows of 1,600,000 node numbers) the program forms, with a self-loop appended per node, the
  list of source nodes and the list of destination nodes (1,700,000 each), counts every node's incoming edges by a
  scatter-add of ones, takes the reciprocal square root of the positive counts (zero elsewhere), and gives each edge the
  product of that number at its two ends: the edge weights of the symmetric normalisation. These forty operations are the
  reference program's first forty, so from any contents `V` of the buffers the three results that are read later hold
  the reference's stages of `V`'s edge list (`src`, `dst`, `weight`), and the five float arguments, which no operation
  writes, hold what they held (`arg0` … `arg4`). Nothing is computed here: each side is the same composition of the same
  operations. The edge weights are read in the program's three steps — the counts and their reciprocal square roots, the
  choice of zero where a node has no edge, the gathers at the two ends and their product — each from what the step
  before left. The second step is a function the program lists inside its caller, whose operations read and write
  through typed references: their moves between a buffer's own type and the value type are removed by the lemmas about
  typed references, never by unfolding.
-/
import proofs.«153812_j33191507264214_2_alg».proof.Proof.Gen.KernelIdeal.Launch
import proofs.«153812_j33191507264214_2_alg».proof.Proof.RefRead
import Idealize.ShloMosaic.Lib.StableHlo.Run
import proofs.«153812_j33191507264214_2_alg».proof.Proof.LibTypedRef

set_option maxRecDepth 16384

noncomputable section

namespace Cert.KernelIdeal.HostPre

open Cert.KernelIdeal Cert.KernelIdeal.Gen Cert.ReferenceIdeal.ReadP
open Idealize.ShloMosaic Idealize.ShloMosaic.TcCoe Idealize.SL.Sem Idealize.ShloMosaic.StableHlo

variable (V : Valuation τ sig (Elt Ideal))

/-! ## The whole stretch at the node lists and the arguments -/

/-- The source node of every edge, self-loops appended. -/
theorem src : after hostOps0_2 (after hostOps0_1 (after hostOps0 V)) (Proc.devRef .tc main_v3)
    = val_main_v3 (F := Ideal) (V (Proc.devRef .tc main_arg5)) := by
  after_results_simp <;> rfl

/-- The destination node of every edge, self-loops appended. -/
theorem dst : after hostOps0_2 (after hostOps0_1 (after hostOps0 V)) (Proc.devRef .tc main_v6)
    = val_main_v6 (F := Ideal) (V (Proc.devRef .tc main_arg5)) := by
  after_results_simp <;> rfl

/-- Argument 0 is not written. -/
theorem arg0 : after hostOps0_2 (after hostOps0_1 (after hostOps0 V)) (Proc.devRef .tc main_arg0) = V (Proc.devRef .tc main_arg0) := by
  after_results_simp <;> rfl

/-- Argument 1 is not written. -/
theorem arg1 : after hostOps0_2 (after hostOps0_1 (after hostOps0 V)) (Proc.devRef .tc main_arg1) = V (Proc.devRef .tc main_arg1) := by
  after_results_simp <;> rfl

/-- Argument 2 is not written. -/
theorem arg2 : after hostOps0_2 (after hostOps0_1 (after hostOps0 V)) (Proc.devRef .tc main_arg2) = V (Proc.devRef .tc main_arg2) := by
  after_results_simp <;> rfl

/-- Argument 3 is not written. -/
theorem arg3 : after hostOps0_2 (after hostOps0_1 (after hostOps0 V)) (Proc.devRef .tc main_arg3) = V (Proc.devRef .tc main_arg3) := by
  after_results_simp <;> rfl

/-- Argument 4 is not written. -/
theorem arg4 : after hostOps0_2 (after hostOps0_1 (after hostOps0 V)) (Proc.devRef .tc main_arg4) = V (Proc.devRef .tc main_arg4) := by
  after_results_simp <;> rfl

/-! ## The edge weights, step by step -/

/-- After the first step: is a node's count of incoming edges positive. -/
theorem positive : after hostOps0 V (Proc.devRef .tc main_v12) = val_main_v12 (F := Ideal) (V (Proc.devRef .tc main_arg5)) := by
  after_results_simp <;> rfl

/-- After the first step: the reciprocal square root of every node's count. -/
theorem rsqrtCount : after hostOps0 V (Proc.devRef .tc main_v13) = val_main_v13 (F := Ideal) (V (Proc.devRef .tc main_arg5)) := by
  after_results_simp <;> rfl

/-- After the first step: the zero chosen where a node has no edge. -/
theorem zero : after hostOps0 V (Proc.devRef .tc main_cst_2) = val_main_cst_2 (F := Ideal) := by
  after_results_simp <;> rfl

/-- The first two steps leave the node lists as the first step made them. -/
theorem src01 : after hostOps0_1 (after hostOps0 V) (Proc.devRef .tc main_v3)
    = val_main_v3 (F := Ideal) (V (Proc.devRef .tc main_arg5)) := by
  after_results_simp <;> rfl

theorem dst01 : after hostOps0_1 (after hostOps0 V) (Proc.devRef .tc main_v6)
    = val_main_v6 (F := Ideal) (V (Proc.devRef .tc main_arg5)) := by
  after_results_simp <;> rfl

/-- The second step: every node's normalising number, the reciprocal square root of its count where that is positive and
    zero elsewhere. -/
theorem nodeScale (x5 : (⟨S2x1600000, .i32⟩ : BufTy).Contents (Elt Ideal))
    (h12 : V (Proc.devRef .tc main_v12) = val_main_v12 (F := Ideal) x5)
    (h13 : V (Proc.devRef .tc main_v13) = val_main_v13 (F := Ideal) x5)
    (hz : V (Proc.devRef .tc main_cst_2) = val_main_cst_2 (F := Ideal)) :
    after hostOps0_1 V (Proc.devRef .tc main_v14) = val_main_v14 (F := Ideal) x5 := by
  after_results_simp
  rw [h12, h13, hz]
  simp only [Cert.TypedRef.ofBuf_toBuf]
  rw [Cert.TypedRef.ofBuf_eq (TRef.of main_v12 : TRef sig ⟨S100000, .i1⟩) _ (val_main_v12 (F := Ideal) x5) HEq.rfl,
    Cert.TypedRef.ofBuf_eq (TRef.of main_v13 : TRef sig ⟨S100000, .f32⟩) _ (val_main_v13 (F := Ideal) x5) HEq.rfl,
    Cert.TypedRef.ofBuf_eq (TRef.of main_cst_2 : TRef sig ⟨S_, .f32⟩) _ (val_main_cst_2 (F := Ideal)) HEq.rfl]
  exact Cert.TypedRef.toBuf_eq _ _ _ (heq_of_eq rfl)

/-- The third step: every edge's weight, the normalising numbers of its two ends multiplied. -/
theorem edgeWeight (x5 : (⟨S2x1600000, .i32⟩ : BufTy).Contents (Elt Ideal))
    (h14 : V (Proc.devRef .tc main_v14) = val_main_v14 (F := Ideal) x5)
    (h3 : V (Proc.devRef .tc main_v3) = val_main_v3 (F := Ideal) x5)
    (h6 : V (Proc.devRef .tc main_v6) = val_main_v6 (F := Ideal) x5) :
    after hostOps0_2 V (Proc.devRef .tc main_v29) = val_main_v29 (F := Ideal) x5 := by
  after_results_simp
  rw [h14, h3, h6]
  rfl

/-- The weight of every edge after the whole stretch. -/
theorem weight : after hostOps0_2 (after hostOps0_1 (after hostOps0 V)) (Proc.devRef .tc main_v29)
    = val_main_v29 (F := Ideal) (V (Proc.devRef .tc main_arg5)) :=
  edgeWeight (after hostOps0_1 (after hostOps0 V)) (V (Proc.devRef .tc main_arg5))
    (nodeScale (after hostOps0 V) (V (Proc.devRef .tc main_arg5)) (positive V) (rsqrtCount V) (zero V))
    (src01 V) (dst01 V)

end Cert.KernelIdeal.HostPre

end
-- ==== Proof.HostMid.lean ====
/-
  THE HOST OPERATIONS BETWEEN THE TWO PRODUCTS, read at the buffers the rest of the program uses.

  The first product's rows are gathered at every edge's source node, scaled by the edge's weight, added up at the edge's
  destination node (a scatter-add into zeros), the first bias is added to every row (`preact`), and the negative entries
  are cut to zero (`rectified`). These twenty-two operations are the reference's, applied there to its own first product.
  So from any contents `V` in which the first product's array, the two node lists, the edge weights and the bias hold the
  reference's stages of the arguments, the hidden layer holds the reference's stage (`hidden`); the node lists, the
  weights and the two arguments read later are not written (`src`, `dst`, `weight`, `arg3`, `arg4`).
-/
import proofs.«153812_j33191507264214_2_alg».proof.Proof.Gen.KernelIdeal.Launch
import proofs.«153812_j33191507264214_2_alg».proof.Proof.RefRead
import Idealize.ShloMosaic.Lib.StableHlo.Run
import proofs.«153812_j33191507264214_2_alg».proof.Proof.LibTypedRef

set_option maxRecDepth 16384

noncomputable section

namespace Cert.KernelIdeal.HostMid

open Cert.KernelIdeal Cert.KernelIdeal.Gen Cert.ReferenceIdeal.ReadP
open Idealize.ShloMosaic Idealize.ShloMosaic.TcCoe Idealize.SL.Sem Idealize.ShloMosaic.StableHlo

variable (V : Valuation τ sig (Elt Ideal))

/-- The normalised neighbourhood sum of the first product's rows, plus the bias. -/
theorem preact (x0 : (⟨S100000x128, .f32⟩ : BufTy).Contents (Elt Ideal)) (x1 : (⟨S128x64, .f32⟩ : BufTy).Contents (Elt Ideal))
    (x2 : (⟨S64, .f32⟩ : BufTy).Contents (Elt Ideal)) (x5 : (⟨S2x1600000, .i32⟩ : BufTy).Contents (Elt Ideal))
    (h30 : V (Proc.devRef .tc main_v30) = val_main_v30 (F := Ideal) x0 x1)
    (h3 : V (Proc.devRef .tc main_v3) = val_main_v3 (F := Ideal) x5)
    (h6 : V (Proc.devRef .tc main_v6) = val_main_v6 (F := Ideal) x5)
    (h29 : V (Proc.devRef .tc main_v29) = val_main_v29 (F := Ideal) x5)
    (h2 : V (Proc.devRef .tc main_arg2) = x2) :
    after hostOps1 V (Proc.devRef .tc main_v46) = val_main_v46 (F := Ideal) x0 x1 x2 x5 := by
  after_results_simp
  rw [h30, h3, h6, h29, h2]
  rfl

/-- The negative entries cut to zero. -/
theorem rectified (x0 : (⟨S100000x128, .f32⟩ : BufTy).Contents (Elt Ideal)) (x1 : (⟨S128x64, .f32⟩ : BufTy).Contents (Elt Ideal))
    (x2 : (⟨S64, .f32⟩ : BufTy).Contents (Elt Ideal)) (x5 : (⟨S2x1600000, .i32⟩ : BufTy).Contents (Elt Ideal))
    (h46 : V (Proc.devRef .tc main_v46) = val_main_v46 (F := Ideal) x0 x1 x2 x5) :
    after hostOps1_1 V (Proc.devRef .tc main_v47) = val_main_v47 (F := Ideal) x0 x1 x2 x5 := by
  after_results_simp
  rw [h46]
  simp only [Cert.TypedRef.ofBuf_toBuf]
  rw [Cert.TypedRef.ofBuf_eq (TRef.of main_v46 : TRef sig ⟨S100000x64, .f32⟩) _ (val_main_v46 (F := Ideal) x0 x1 x2 x5) HEq.rfl]
  exact Cert.TypedRef.toBuf_eq _ _ _ (heq_of_eq rfl)

/-- The hidden layer after both steps. -/
theorem hidden (x0 : (⟨S100000x128, .f32⟩ : BufTy).Contents (Elt Ideal)) (x1 : (⟨S128x64, .f32⟩ : BufTy).Contents (Elt Ideal))
    (x2 : (⟨S64, .f32⟩ : BufTy).Contents (Elt Ideal)) (x5 : (⟨S2x1600000, .i32⟩ : BufTy).Contents (Elt Ideal))
    (h30 : V (Proc.devRef .tc main_v30) = val_main_v30 (F := Ideal) x0 x1)
    (h3 : V (Proc.devRef .tc main_v3) = val_main_v3 (F := Ideal) x5)
    (h6 : V (Proc.devRef .tc main_v6) = val_main_v6 (F := Ideal) x5)
    (h29 : V (Proc.devRef .tc main_v29) = val_main_v29 (F := Ideal) x5)
    (h2 : V (Proc.devRef .tc main_arg2) = x2) :
    after hostOps1_1 (after hostOps1 V) (Proc.devRef .tc main_v47) = val_main_v47 (F := Ideal) x0 x1 x2 x5 :=
  rectified (after hostOps1 V) x0 x1 x2 x5 (preact V x0 x1 x2 x5 h30 h3 h6 h29 h2)

/-- The source nodes are not written. -/
theorem src : after hostOps1_1 (after hostOps1 V) (Proc.devRef .tc main_v3) = V (Proc.devRef .tc main_v3) := by
  after_results_simp <;> rfl

/-- The destination nodes are not written. -/
theorem dst : after hostOps1_1 (after hostOps1 V) (Proc.devRef .tc main_v6) = V (Proc.devRef .tc main_v6) := by
  after_results_simp <;> rfl

/-- The edge weights are not written. -/
theorem weight : after hostOps1_1 (after hostOps1 V) (Proc.devRef .tc main_v29) = V (Proc.devRef .tc main_v29) := by
  after_results_simp <;> rfl

/-- Argument 3 is not written. -/
theorem arg3 : after hostOps1_1 (after hostOps1 V) (Proc.devRef .tc main_arg3) = V (Proc.devRef .tc main_arg3) := by
  after_results_simp <;> rfl

/-- Argument 4 is not written. -/
theorem arg4 : after hostOps1_1 (after hostOps1 V) (Proc.devRef .tc main_arg4) = V (Proc.devRef .tc main_arg4) := by
  after_results_simp <;> rfl

end Cert.KernelIdeal.HostMid

end
-- ==== Proof.HostTail.lean ====
/-
  THE HOST OPERATIONS AFTER THE SECOND PRODUCT, read at the program's result.

  The second product's rows are gathered at every edge's source node, scaled by the edge's weight, added up at the edge's
  destination node, and the second bias is added to every row: the reference's last nineteen operations, applied there to
  its own second product. So from any contents `V` in which the second product's array, the two node lists, the edge
  weights and the bias hold the reference's stages of the arguments, the result holds the reference's last stage.
-/
import proofs.«153812_j33191507264214_2_alg».proof.Proof.Gen.KernelIdeal.Launch
import proofs.«153812_j33191507264214_2_alg».proof.Proof.RefRead
import Idealize.ShloMosaic.Lib.StableHlo.Run

set_option maxRecDepth 16384

noncomputable section

namespace Cert.KernelIdeal.HostTail

open Cert.KernelIdeal Cert.KernelIdeal.Gen Cert.ReferenceIdeal.ReadP
open Idealize.ShloMosaic Idealize.ShloMosaic.TcCoe Idealize.SL.Sem Idealize.ShloMosaic.StableHlo

variable (V : Valuation τ sig (Elt Ideal))

/-- The result: the normalised neighbourhood sum of the second product's rows, plus the bias. -/
theorem result (x0 : (⟨S100000x128, .f32⟩ : BufTy).Contents (Elt Ideal)) (x1 : (⟨S128x64, .f32⟩ : BufTy).Contents (Elt Ideal))
    (x2 : (⟨S64, .f32⟩ : BufTy).Contents (Elt Ideal)) (x3 : (⟨S64x32, .f32⟩ : BufTy).Contents (Elt Ideal)) (x4 : (⟨S32, .f32⟩ : BufTy).Contents (Elt Ideal))
    (x5 : (⟨S2x1600000, .i32⟩ : BufTy).Contents (Elt Ideal))
    (h48 : V (Proc.devRef .tc main_v48) = val_main_v48 (F := Ideal) x0 x1 x2 x3 x5)
    (h3 : V (Proc.devRef .tc main_v3) = val_main_v3 (F := Ideal) x5)
    (h6 : V (Proc.devRef .tc main_v6) = val_main_v6 (F := Ideal) x5)
    (h29 : V (Proc.devRef .tc main_v29) = val_main_v29 (F := Ideal) x5)
    (h4 : V (Proc.devRef .tc main_arg4) = x4) :
    after hostOps2 V (Proc.devRef .tc main_v64) = val_main_v64 (F := Ideal) x0 x1 x2 x3 x4 x5 := by
  after_results_simp
  rw [h48, h3, h6, h29, h4]
  rfl

end Cert.KernelIdeal.HostTail

end
-- ==== Proof.KValue.lean ====
/-
  THE KERNEL PROGRAM'S RESULT AS A VALUE OF THE LAUNCH MEMORY.

  The fold through @main has five boundaries that matter: entering the first product, leaving it, entering the second
  product, leaving it, and the return. At each of them the buffers the rest of the program reads are followed here, from
  the launch arrays (the features, the two weight matrices, the two biases, the edge list):
  • entering the first product the node lists and the edge weights hold the reference's stages of the edge list, and the
    float arguments are as launched (the host operations before the product are the reference's);
  • leaving it the product's array holds the reference's `dot_general` of the features and the first weight matrix — a
    product computed block of rows by block of rows is the product of the whole — and the region writes nothing else;
  • entering the second product the hidden layer holds the reference's stage (the host operations between the products
    are the reference's, applied to equal values);
  • leaving it the product's array holds the reference's second `dot_general`;
  • at the return the result buffer holds the reference's last stage of the launch arrays (`result`).
  A buffer that a stretch of host operations or a region does not write keeps its contents across it.
-/
import proofs.«153812_j33191507264214_2_alg».proof.Proof.Gen.KernelIdeal.Frame
import proofs.«153812_j33191507264214_2_alg».proof.Proof.Region0
import proofs.«153812_j33191507264214_2_alg».proof.Proof.Region1
import proofs.«153812_j33191507264214_2_alg».proof.Proof.HostPre
import proofs.«153812_j33191507264214_2_alg».proof.Proof.HostMid
import proofs.«153812_j33191507264214_2_alg».proof.Proof.HostTail

set_option maxRecDepth 16384

noncomputable section

namespace Cert.KernelIdeal.Result

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Entering the first product -/

theorem src3 : W3 m ρ c (Proc.devRef .tc main_v3) = val_main_v3 (F := Ideal) (m ((c.tc : Thread nD τ).loc main_arg5)) := HostPre.src (W0 m ρ c)
theorem dst3 : W3 m ρ c (Proc.devRef .tc main_v6) = val_main_v6 (F := Ideal) (m ((c.tc : Thread nD τ).loc main_arg5)) := HostPre.dst (W0 m ρ c)
theorem weight3 : W3 m ρ c (Proc.devRef .tc main_v29) = val_main_v29 (F := Ideal) (m ((c.tc : Thread nD τ).loc main_arg5)) := HostPre.weight (W0 m ρ c)
theorem arg0_3 : W3 m ρ c (Proc.devRef .tc main_arg0) = (m ((c.tc : Thread nD τ).loc main_arg0)) := HostPre.arg0 (W0 m ρ c)
theorem arg1_3 : W3 m ρ c (Proc.devRef .tc main_arg1) = (m ((c.tc : Thread nD τ).loc main_arg1)) := HostPre.arg1 (W0 m ρ c)
theorem arg2_3 : W3 m ρ c (Proc.devRef .tc main_arg2) = (m ((c.tc : Thread nD τ).loc main_arg2)) := HostPre.arg2 (W0 m ρ c)
theorem arg3_3 : W3 m ρ c (Proc.devRef .tc main_arg3) = (m ((c.tc : Thread nD τ).loc main_arg3)) := HostPre.arg3 (W0 m ρ c)
theorem arg4_3 : W3 m ρ c (Proc.devRef .tc main_arg4) = (m ((c.tc : Thread nD τ).loc main_arg4)) := HostPre.arg4 (W0 m ρ c)

/-! ## Leaving the first product -/

/-- The first product's array: the reference's `dot_general` of the features and the first weight matrix. -/
theorem prod4 : W4 m ρ c (Proc.devRef .tc main_v30) = val_main_v30 (F := Ideal) (m ((c.tc : Thread nD τ).loc main_arg0)) (m ((c.tc : Thread nD τ).loc main_arg1)) :=
  (W4_arr m ρ c 2).trans ((Product0.array (V3 m ρ) c).trans (by
    show Product0.whole (W3 m ρ c (Proc.devRef .tc main_arg0)) (W3 m ρ c (Proc.devRef .tc main_arg1)) = _
    rw [arg0_3 m ρ c, arg1_3 m ρ c]
    rfl))

theorem src4 : W4 m ρ c (Proc.devRef .tc main_v3) = val_main_v3 (F := Ideal) (m ((c.tc : Thread nD τ).loc main_arg5)) :=
  (W4_of_ne m ρ c main_v3 (by decide)).trans (src3 m ρ c)
theorem dst4 : W4 m ρ c (Proc.devRef .tc main_v6) = val_main_v6 (F := Ideal) (m ((c.tc : Thread nD τ).loc main_arg5)) :=
  (W4_of_ne m ρ c main_v6 (by decide)).trans (dst3 m ρ c)
theorem weight4 : W4 m ρ c (Proc.devRef .tc main_v29) = val_main_v29 (F := Ideal) (m ((c.tc : Thread nD τ).loc main_arg5)) :=
  (W4_of_ne m ρ c main_v29 (by decide)).trans (weight3 m ρ c)
theorem arg2_4 : W4 m ρ c (Proc.devRef .tc main_arg2) = (m ((c.tc : Thread nD τ).loc main_arg2)) := (W4_of_ne m ρ c main_arg2 (by decide)).trans (arg2_3 m ρ c)
theorem arg3_4 : W4 m ρ c (Proc.devRef .tc main_arg3) = (m ((c.tc : Thread nD τ).loc main_arg3)) := (W4_of_ne m ρ c main_arg3 (by decide)).trans (arg3_3 m ρ c)
theorem arg4_4 : W4 m ρ c (Proc.devRef .tc main_arg4) = (m ((c.tc : Thread nD τ).loc main_arg4)) := (W4_of_ne m ρ c main_arg4 (by decide)).trans (arg4_3 m ρ c)

/-! ## Entering the second product -/

/-- The hidden layer. -/
theorem hidden6 : W6 m ρ c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg5)) :=
  HostMid.hidden (W4 m ρ c) (m ((c.tc : Thread nD τ).loc main_arg0)) (m ((c.tc : Thread nD τ).loc main_arg1)) (m ((c.tc : Thread nD τ).loc main_arg2)) (m ((c.tc : Thread nD τ).loc main_arg5)) (prod4 m ρ c) (src4 m ρ c) (dst4 m ρ c) (weight4 m ρ c) (arg2_4 m ρ c)

theorem src6 : W6 m ρ c (Proc.devRef .tc main_v3) = val_main_v3 (F := Ideal) (m ((c.tc : Thread nD τ).loc main_arg5)) := (HostMid.src (W4 m ρ c)).trans (src4 m ρ c)
theorem dst6 : W6 m ρ c (Proc.devRef .tc main_v6) = val_main_v6 (F := Ideal) (m ((c.tc : Thread nD τ).loc main_arg5)) := (HostMid.dst (W4 m ρ c)).trans (dst4 m ρ c)
theorem weight6 : W6 m ρ c (Proc.devRef .tc main_v29) = val_main_v29 (F := Ideal) (m ((c.tc : Thread nD τ).loc main_arg5)) :=
  (HostMid.weight (W4 m ρ c)).trans (weight4 m ρ c)
theorem arg3_6 : W6 m ρ c (Proc.devRef .tc main_arg3) = (m ((c.tc : Thread nD τ).loc main_arg3)) := (HostMid.arg3 (W4 m ρ c)).trans (arg3_4 m ρ c)
theorem arg4_6 : W6 m ρ c (Proc.devRef .tc main_arg4) = (m ((c.tc : Thread nD τ).loc main_arg4)) := (HostMid.arg4 (W4 m ρ c)).trans (arg4_4 m ρ c)

/-! ## Leaving the second product -/

/-- The second product's array: the reference's `dot_general` of the hidden layer and the second weight matrix. -/
theorem prod7 : W7 m ρ c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  (W7_arr m ρ c 2).trans ((Product1.array (V6 m ρ) c).trans (by
    show Product1.whole (W6 m ρ c (Proc.devRef .tc main_v47)) (W6 m ρ c (Proc.devRef .tc main_arg3)) = _
    rw [hidden6 m ρ c, arg3_6 m ρ c]
    rfl))

theorem src7 : W7 m ρ c (Proc.devRef .tc main_v3) = val_main_v3 (F := Ideal) (m ((c.tc : Thread nD τ).loc main_arg5)) :=
  (W7_of_ne m ρ c main_v3 (by decide)).trans (src6 m ρ c)
theorem dst7 : W7 m ρ c (Proc.devRef .tc main_v6) = val_main_v6 (F := Ideal) (m ((c.tc : Thread nD τ).loc main_arg5)) :=
  (W7_of_ne m ρ c main_v6 (by decide)).trans (dst6 m ρ c)
theorem weight7 : W7 m ρ c (Proc.devRef .tc main_v29) = val_main_v29 (F := Ideal) (m ((c.tc : Thread nD τ).loc main_arg5)) :=
  (W7_of_ne m ρ c main_v29 (by decide)).trans (weight6 m ρ c)
theorem arg4_7 : W7 m ρ c (Proc.devRef .tc main_arg4) = (m ((c.tc : Thread nD τ).loc main_arg4)) := (W7_of_ne m ρ c main_arg4 (by decide)).trans (arg4_6 m ρ c)

/-! ## The return -/

/-- The result buffer at the last boundary: the reference's last stage of the launch arrays. -/
theorem result : W8 m ρ c (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  HostTail.result (W7 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (prod7 m ρ c) (src7 m ρ c) (dst7 m ρ c) (weight7 m ρ c) (arg4_7 m ρ c)

end Cert.KernelIdeal.Result

end
-- ==== Proof.lean ====
/-
  A two-layer graph convolution whose two dense products run on the vector unit, against the same network with the
  products on the host: equal results over the extended reals.

  Both programs compute, from node features `x` `[100000, 128]`, weights `W1` `[128, 64]`, `W2` `[64, 32]`, biases `b1`,
  `b2` and an edge list `e` `[2, 1600000]`:  `z = Â (relu (Â (x W1) + b1) W2) + b2`, where `Â y` gathers the rows of `y` at
  every edge's source node (self-loops appended), scales each by the edge's weight `d(src)·d(dst)`, `d` the reciprocal
  square root of a node's count of incoming edges (zero where there is none), and adds them up at the edge's
  destination node. Everything but the two products `x W1` and `h W2` is the same sequence of host operations in both
  programs. The kernel program computes each product in ten blocks of 10,000 rows, each block a matrix product into a
  zero accumulator after a change of float format; the reference calls `dot_general` once on the whole arrays. At the
  ideal values a change of float format is the identity, a product into zero is the plain sum `∑ k, a (p, k) · w (k, c)`
  and so is `dot_general`; row `p` of a block is row `10000·t + p` of the whole array, and the blocks tile the result. So
  each product array of the kernel program holds the reference's `dot_general` (Proof/Region0, Proof/Region1 over
  Proof/LibBlockDot), and the host operations around them, being the reference's own, carry equal values to equal values
  (Proof/HostPre, HostMid, HostTail, assembled in Proof/KValue). The sums are compared term by term in one order: no
  law of the extended reals is used, and the precondition (finite inputs) is never opened.

  The claims: the two kernel programs' frames are the generated ones; the reference's frame is its run with the result
  dropped; the ideal pass rewrote nothing, so `preserves` is `True`; `algebraic` posts both runs at one term, the
  reference's last stage of the kernel program's launch arrays (Proof/KRun gives the kernel program's run with its result
  buffer named; Proof/RefRun and Proof/RefRead the reference's run and its stages).
-/
import proofs.«153812_j33191507264214_2_alg».proof.Defs
import proofs.«153812_j33191507264214_2_alg».proof.Proof.Gen.Kernel
import proofs.«153812_j33191507264214_2_alg».proof.Proof.Gen.Kernel.Skeleton
import proofs.«153812_j33191507264214_2_alg».proof.Proof.Gen.Kernel.Launch
import proofs.«153812_j33191507264214_2_alg».proof.Proof.Gen.Kernel.Points
import proofs.«153812_j33191507264214_2_alg».proof.Proof.Gen.Kernel.Frame
import proofs.«153812_j33191507264214_2_alg».proof.Proof.Gen.KernelIdeal
import proofs.«153812_j33191507264214_2_alg».proof.Proof.Gen.KernelIdeal.Skeleton
import proofs.«153812_j33191507264214_2_alg».proof.Proof.Gen.KernelIdeal.Launch
import proofs.«153812_j33191507264214_2_alg».proof.Proof.Gen.KernelIdeal.Points
import proofs.«153812_j33191507264214_2_alg».proof.Proof.Gen.KernelIdeal.Frame
import proofs.«153812_j33191507264214_2_alg».proof.Proof.Gen.ReferenceIdeal
import proofs.«153812_j33191507264214_2_alg».proof.Proof.Gen.Pre_finite_inputs
import proofs.«153812_j33191507264214_2_alg».proof.Proof.RefRun
import proofs.«153812_j33191507264214_2_alg».proof.Proof.RefRead
import proofs.«153812_j33191507264214_2_alg».proof.Proof.KRun
import proofs.«153812_j33191507264214_2_alg».proof.Proof.KValue
import Idealize.ShloMosaic.Adequacy
import Idealize.ShloMosaic.Init

noncomputable section

namespace Cert.Proof

open Idealize.ShloMosaic Idealize.SL.Sem

/-- The kernel program as printed runs, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the result buffer at the reference's last stage of
    the launch arrays: the kernel program by its fold read at the result (`Result.result`), the reference by its run. -/
theorem algebraic : Cert.algebraic_KernelIdeal_ReferenceIdeal := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v64_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
